-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x256 .f32) (main_arg3 : FVec F S256 .f32) (main_arg4 : FVec F S256x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 87
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S690000, .f32⟩
  | .hbm, ⟨48, _⟩ => ⟨S_, .i32⟩
  | .hbm, ⟨49, _⟩ => ⟨S690000, .i32⟩
  | .hbm, ⟨50, _⟩ => ⟨S690000, .i1⟩
  | .hbm, ⟨51, _⟩ => ⟨S_, .i32⟩
  | .hbm, ⟨52, _⟩ => ⟨S690000, .i32⟩
  | .hbm, ⟨53, _⟩ => ⟨S690000, .i32⟩
  | .hbm, ⟨54, _⟩ => ⟨S690000, .i32⟩
  | .hbm, ⟨55, _⟩ => ⟨S690000x1, .i32⟩
  | .hbm, ⟨56, _⟩ => ⟨S690000x128, .f32⟩
  | .hbm, ⟨57, _⟩ => ⟨S690000x1, .f32⟩
  | .hbm, ⟨58, _⟩ => ⟨S690000x128, .f32⟩
  | .hbm, ⟨59, _⟩ => ⟨S690000x128, .f32⟩
  | .hbm, ⟨60, _⟩ => ⟨S_, .f32⟩
  | .hbm, ⟨61, _⟩ => ⟨S50000x128, .f32⟩
  | .hbm, ⟨62, _⟩ => ⟨S690000x1, .i32⟩
  | .hbm, ⟨63, _⟩ => ⟨S50000x128, .f32⟩
  | .hbm, ⟨64, _⟩ => ⟨S1x256, .f32⟩
  | .hbm, ⟨65, _⟩ => ⟨S50000x256, .f32⟩
  | .hbm, ⟨66, _⟩ => ⟨S50000x128, .bf16⟩
  | .hbm, ⟨67, _⟩ => ⟨S_, .i32⟩
  | .hbm, ⟨68, _⟩ => ⟨S690000, .i32⟩
  | .hbm, ⟨69, _⟩ => ⟨S690000, .i1⟩
  | .hbm, ⟨70, _⟩ => ⟨S_, .i32⟩
  | .hbm, ⟨71, _⟩ => ⟨S690000, .i32⟩
  | .hbm, ⟨72, _⟩ => ⟨S690000, .i32⟩
  | .hbm, ⟨73, _⟩ => ⟨S690000, .i32⟩
  | .hbm, ⟨74, _⟩ => ⟨S690000x1, .i32⟩
  | .hbm, ⟨75, _⟩ => ⟨S690000x128, .bf16⟩
  | .hbm, ⟨76, _⟩ => ⟨S690000x128, .f32⟩
  | .hbm, ⟨77, _⟩ => ⟨S690000x1, .f32⟩
  | .hbm, ⟨78, _⟩ => ⟨S690000x128, .f32⟩
  | .hbm, ⟨79, _⟩ => ⟨S690000x128, .f32⟩
  | .hbm, ⟨80, _⟩ => ⟨S_, .f32⟩
  | .hbm, ⟨81, _⟩ => ⟨S50000x128, .f32⟩
  | .hbm, ⟨82, _⟩ => ⟨S690000x1, .i32⟩
  | .hbm, ⟨83, _⟩ => ⟨S50000x128, .f32⟩
  | .hbm, ⟨84, _⟩ => ⟨S1x128, .f32⟩
  | .hbm, ⟨85, _⟩ => ⟨S1x40, .f32⟩
  | .hbm, ⟨86, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  packedbf16_S5000x128_S5000x128_0_0 : (Rect.unit (s := S5000x128) ![0, 0] S5000x128.size inb_S5000x128_S5000x128_0_0).PackedRows (EltTy.packing .bf16)
  shapeCasts_S128_S1x128 : S128.ShapeCasts S1x128
  shapeCasts_S40_S1x40 : S40.ShapeCasts S1x40
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S50000x40.size a
  hwx2_4 : ∀ i : grid2.Coords, EltTy.bits .f32 = 32 ∨ (Rect.block (s := S50000x40) S5000x40.size (cc2_transform_4 i) (hinb2_4 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x256 : Shape := ⟨2, ![50000, 256]⟩
abbrev S690000x256 : Shape := ⟨2, ![690000, 256]⟩
abbrev S1x256 : Shape := ⟨2, ![1, 256]⟩
abbrev S690000x128 : Shape := ⟨2, ![690000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x640000, .i32⟩
  | 2 => ⟨S128x256, .f32⟩
  | 3 => ⟨S256, .f32⟩
  | 4 => ⟨S256x128, .f32⟩
  | 5 => ⟨S128, .f32⟩
  | 6 => ⟨S128x40, .f32⟩
  | 7 => ⟨S40, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S690000, .i32⟩
  | 31 => ⟨S690000, .i1⟩
  | 32 => ⟨S_, .i32⟩
  | 33 => ⟨S690000, .i32⟩
  | 34 => ⟨S690000, .i32⟩
  | 35 => ⟨S690000, .i32⟩
  | 36 => ⟨S690000x1, .i32⟩
  | 37 => ⟨S690000, .f32⟩
  | 38 => ⟨S_, .i32⟩
  | 39 => ⟨S690000, .i32⟩
  | 40 => ⟨S690000, .i1⟩
  | 41 => ⟨S_, .i32⟩
  | 42 => ⟨S690000, .i32⟩
  | 43 => ⟨S690000, .i32⟩
  | 44 => ⟨S690000, .i32⟩
  | 45 => ⟨S690000x1, .i32⟩
  | 46 => ⟨S690000, .f32⟩
  | 47 => ⟨S690000, .f32⟩
  | 48 => ⟨S50000x256, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x256, .f32⟩
  | 58 => ⟨S690000x1, .f32⟩
  | 59 => ⟨S690000x256, .f32⟩
  | 60 => ⟨S690000x256, .f32⟩
  | 61 => ⟨S_, .f32⟩
  | 62 => ⟨S50000x256, .f32⟩
  | 63 => ⟨S690000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S_, .f32⟩
  | 72 => ⟨S690000, .f32⟩
  | 73 => ⟨S_, .f32⟩
  | 74 => ⟨S50000, .f32⟩
  | 75 => ⟨S690000x1, .i32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S690000, .i32⟩
  | 87 => ⟨S690000, .i1⟩
  | 88 => ⟨S_, .i32⟩
  | 89 => ⟨S690000, .i32⟩
  | 90 => ⟨S690000, .i32⟩
  | 91 => ⟨S690000, .i32⟩
  | 92 => ⟨S690000x1, .i32⟩
  | 93 => ⟨S690000, .f32⟩
  | 94 => ⟨S_, .i32⟩
  | 95 => ⟨S690000, .i32⟩
  | 96 => ⟨S690000, .i1⟩
  | 97 => ⟨S_, .i32⟩
  | 98 => ⟨S690000, .i32⟩
  | 99 => ⟨S690000, .i32⟩
  | 100 => ⟨S690000, .i32⟩
  | 101 => ⟨S690000x1, .i32⟩
  | 102 => ⟨S690000, .f32⟩
  | 103 => ⟨S690000, .f32⟩
  | 104 => ⟨S50000x128, .f32⟩
  | 105 => ⟨S_, .i32⟩
  | 106 => ⟨S690000, .i32⟩
  | 107 => ⟨S690000, .i1⟩
  | 108 => ⟨S_, .i32⟩
  | 109 => ⟨S690000, .i32⟩
  | 110 => ⟨S690000, .i32⟩
  | 111 => ⟨S690000, .i32⟩
  | 112 => ⟨S690000x1, .i32⟩
  | 113 => ⟨S690000x128, .f32⟩
  | 114 => ⟨S690000x1, .f32⟩
  | 115 => ⟨S690000x128, .f32⟩
  | 116 => ⟨S690000x128, .f32⟩
  | 117 => ⟨S_, .f32⟩
  | 118 => ⟨S50000x128, .f32⟩
  | 119 => ⟨S690000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x40, .f32⟩
  | _ => ⟨S50000x128, .f32⟩

abbrev hbmTy0_1 (i : Nat) : BufTy := match i % 128 with
  | 0 => ⟨S1x40, .f32⟩
  | 1 => ⟨S50000x40, .f32⟩
  | 2 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_c_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x256_S50000x256_1_0_0_1_n_n_wf : DotDims.WF S50000x128 S128x256 S50000x256 [1] [0] [0] [1] [] []
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S50000x256_S256x128_S50000x128_1_0_0_1_n_n_wf : DotDims.WF S50000x256 S256x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x40_S50000x40_1_0_0_1_n_n_wf : DotDims.WF S50000x128 S128x40 S50000x40 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The idealized kernel's run with its RESULT named.

  @main is seven segments: three stretches of host operations, two pallas regions, a fourth stretch, the last region. The
  generated frame certificate runs them and keeps, of the final state, only that the argument arrays are as launched.
  The same run says more: every unscoped buffer ends at the last segment boundary's contents `Gen.W7`. Read at the result
  buffer this names the kernel's result array; the arguments are read as the generated frame reads them.
-/
import proofs.«158695_j36636071034924_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.KRun

end
-- ==== Proof.Edge.lean ====
/-
  The graph's edge structure, as the two programs compute it from the edge list `x1 : i32[2, 640000]`.

  * `srcs x1`, `dsts x1` : i32[690000] — row 0 and row 1 of the edge list, each followed by the 50000 self loops 0, 1, ….
  * `wrap v` — a negative index has 50000 added (numpy's indexing from the end), the others are kept.
  * `deg x1` : [50000] — the number of edges landing on each node: ones scatter-added at `dsts`.
  * `dinv x1` — `deg^(-1/2)` where the degree is positive, else 0.
  * `norm x1` : [690000] — per edge, `dinv` at its (wrapped) source times `dinv` at its (wrapped) target.
  * `take h s` : [690000, 128] — the rows of `h` at the wrapped sources `s`; `scat msg d nrm` : [50000, 128] — the rows of
    `msg`, each scaled by its edge's weight `nrm`, scatter-added at the targets `d` into zeros. `agg h x1`, the two at this
    graph's sources, targets and `norm`, is the normalised neighbourhood sum `D^(-1/2) (A + I) D^(-1/2) h`.
-/
import proofs.«158695_j36636071034924_2_alg».proof.Proof.Gen.KernelIdeal

noncomputable section

namespace Cert.KernelIdeal.Edge

open Cert.KernelIdeal Cert.KernelIdeal.Facts₀ Cert.KernelIdeal.Facts Idealize.ShloMosaic Idealize.ShloMosaic.TcCoe

variable {F : FTy → Type} [FloatOps F]

/-- The edges' sources, then the self loops. -/
def srcs (x1 : IVec S2x640000 32) : IVec S690000 32 :=
  concatenate S690000 0 [⟨S640000, shapeCast _ (extractStridedSlice S1x640000 ![0, 0] x1 slices_S2x640000_S1x640000_0_0) shapeCasts_S1x640000_S640000⟩, ⟨S50000, iotaInDim S50000 32 0⟩] concatenates_S640000_S50000_S690000_d0

/-- The edges' targets, then the self loops. -/
def dsts (x1 : IVec S2x640000 32) : IVec S690000 32 :=
  concatenate S690000 0 [⟨S640000, shapeCast _ (extractStridedSlice S1x640000 ![1, 0] x1 slices_S2x640000_S1x640000_1_0) shapeCasts_S1x640000_S640000⟩, ⟨S50000, iotaInDim S50000 32 0⟩] concatenates_S640000_S50000_S690000_d0

/-- A negative index counts from the end: 50000 is added to it. -/
def wrap (v : IVec S690000 32) : IVec S690000 32 :=
  select (cmpi .slt v (broadcastInDim S690000 ![] bcast_S_S690000 (constantI S_ 32 0#32)))
    (addi v (broadcastInDim S690000 ![] bcast_S_S690000 (constantI S_ 32 50000#32))) v

/-- A per-edge vector as one column. -/
def col {α : Type} (v : S690000.Idx → α) : S690000x1.Idx → α := broadcastInDim S690000x1 ![0] bcast_S690000_S690000x1_0 v

/-- Zero at every node. -/
def zerosN : FVec F S50000 .f32 := broadcastInDim S50000 ![] bcast_S_S50000 (constant S_ .f32 0x00000000#32)

/-- The number of edges landing on each node. -/
def deg (x1 : IVec S2x640000 32) : FVec F S50000 .f32 :=
  Host.scatterAdd scatter_S50000_S690000x1_S690000_n_0_0_1 zerosN (col (dsts x1))
    (broadcastInDim S690000 ![] bcast_S_S690000 (constant S_ .f32 0x3F800000#32))

/-- `deg^(-1/2)` where the degree is positive, else zero. -/
def dinv (x1 : IVec S2x640000 32) : FVec F S50000 .f32 :=
  select (cmpf .ogt (deg (F := F) x1) zerosN) (Host.rsqrt (deg x1)) (broadcastInDim S50000 ![] bcast_S_S50000 (constant S_ .f32 0x00000000#32))

/-- Per edge: `dinv` at its source times `dinv` at its target. -/
def norm (x1 : IVec S2x640000 32) : FVec F S690000 .f32 :=
  mulf (Host.gather gather_S50000_S690000x1_S690000_n_0_n_n_0_1_1 (dinv x1) (col (wrap (srcs x1))))
    (Host.gather gather_S50000_S690000x1_S690000_n_0_n_n_0_1_1 (dinv x1) (col (wrap (dsts x1))))

/-- The rows of `h` at the (wrapped) sources `s`. -/
def take {φ : FTy} (h : FVec F S50000x128 φ) (s : IVec S690000 32) : FVec F S690000x128 φ :=
  Host.gather gather_S50000x128_S690000x1_S690000x128_1_0_n_n_0_1_1128 h (col (wrap s))

/-- The rows `msg`, scaled per edge by the weights `nrm`, added into the rows the targets `d` name. -/
def scat (msg : FVec F S690000x128 .f32) (d : IVec S690000 32) (nrm : FVec F S690000 .f32) : FVec F S50000x128 .f32 :=
  Host.scatterAdd scatter_S50000x128_S690000x1_S690000x128_1_0_0_1
    (broadcastInDim S50000x128 ![] bcast_S_S50000x128 (constant S_ .f32 0x00000000#32)) (col d)
    (mulf msg (broadcastInDim S690000x128 ![0, 1] bcast_S690000x1_S690000x128_0_1 (col nrm)))

/-- The normalised neighbourhood sum of the rows of `h`. -/
def agg (h : FVec F S50000x128 .f32) (x1 : IVec S2x640000 32) : FVec F S50000x128 .f32 :=
  scat (take h (srcs x1)) (dsts x1) (norm x1)

end Cert.KernelIdeal.Edge

end
-- ==== Proof.KHost.lean ====
/-
  What the kernel's host operations leave in the buffers its three regions read.

  Before the first region the host computes the edge structure and the first aggregation `agg X` of the raw features;
  it reshapes each bias vector to one row. Between the second and the third region it gathers the second region's
  rows at the sources, scales them by the same per-edge weights and scatter-adds them at the same targets — reading the
  sources, the targets and the weights back from the buffers the first stretch wrote.
-/
import proofs.«158695_j36636071034924_2_alg».proof.Proof.Gen.KernelIdeal.Frame
import proofs.«158695_j36636071034924_2_alg».proof.Proof.Edge

set_option maxRecDepth 16384

noncomputable section

namespace Cert.KernelIdeal.KHost

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The first region's left operand is the normalised neighbourhood sum of the raw features. -/
theorem entry0_agg (c : Dev nD) :
    W3 m ρ c (Proc.devRef .tc main_v42)
      = Edge.agg (F := F) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v42) = _
  after_results_simp
  rfl

/-- The first region's weights are the launched `W1`. -/
theorem entry0_w (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

/-- The first region's bias is `b1` as one row. -/
theorem entry0_b (c : Dev nD) :
    W3 m ρ c (Proc.devRef .tc main_v43) = shapeCast S1x256 (m ((c.tc : Thread nD τ).loc main_arg3)) Facts₀.shapeCasts_S256_S1x256 := by
  show StableHlo.after hostOps0_2 (StableHlo.after hostOps0_1 (StableHlo.after hostOps0 (W0 m ρ c))) (Proc.devRef .tc main_v43) = _
  after_results_simp
  rfl

/-- The second region's weights are the launched `W2`: the first region does not write them. -/
theorem entry1_w (c : Dev nD) : W4 m ρ c (Proc.devRef .tc main_arg4) = m ((c.tc : Thread nD τ).loc main_arg4) := by
  refine (W4_of_ne m ρ c main_arg4 (by decide)).trans ?_
  show StableHlo.after hostOps0_2 (StableHlo.after hostOps0_1 (StableHlo.after hostOps0 (W0 m ρ c))) (Proc.devRef .tc main_arg4) = _
  after_results_simp

/-- The sources, the targets and the weights are still in their buffers after the first two regions. -/
theorem srcs_kept (c : Dev nD) : W5 m ρ c (Proc.devRef .tc main_v3) = Edge.srcs (m ((c.tc : Thread nD τ).loc main_arg1)) := by
  refine (W5_of_ne m ρ c main_v3 (by decide)).trans ((W4_of_ne m ρ c main_v3 (by decide)).trans ?_)
  show StableHlo.after hostOps0_2 (StableHlo.after hostOps0_1 (StableHlo.after hostOps0 (W0 m ρ c))) (Proc.devRef .tc main_v3) = _
  after_results_simp
  rfl
theorem dsts_kept (c : Dev nD) : W5 m ρ c (Proc.devRef .tc main_v6) = Edge.dsts (m ((c.tc : Thread nD τ).loc main_arg1)) := by
  refine (W5_of_ne m ρ c main_v6 (by decide)).trans ((W4_of_ne m ρ c main_v6 (by decide)).trans ?_)
  show StableHlo.after hostOps0_2 (StableHlo.after hostOps0_1 (StableHlo.after hostOps0 (W0 m ρ c))) (Proc.devRef .tc main_v6) = _
  after_results_simp
  rfl
theorem norm_kept (c : Dev nD) : W5 m ρ c (Proc.devRef .tc main_v29) = Edge.norm (F := F) (m ((c.tc : Thread nD τ).loc main_arg1)) := by
  refine (W5_of_ne m ρ c main_v29 (by decide)).trans ((W4_of_ne m ρ c main_v29 (by decide)).trans ?_)
  show StableHlo.after hostOps0_2 (StableHlo.after hostOps0_1 (StableHlo.after hostOps0 (W0 m ρ c))) (Proc.devRef .tc main_v29) = _
  after_results_simp
  rfl

/-- An argument no region and no host operation writes is as launched when the last stretch starts. -/
theorem arg5_kept (c : Dev nD) : W5 m ρ c (Proc.devRef .tc main_arg5) = m ((c.tc : Thread nD τ).loc main_arg5) := by
  refine (W5_of_ne m ρ c main_arg5 (by decide)).trans ((W4_of_ne m ρ c main_arg5 (by decide)).trans ?_)
  show StableHlo.after hostOps0_2 (StableHlo.after hostOps0_1 (StableHlo.after hostOps0 (W0 m ρ c))) (Proc.devRef .tc main_arg5) = _
  after_results_simp
theorem arg6_kept (c : Dev nD) : W5 m ρ c (Proc.devRef .tc main_arg6) = m ((c.tc : Thread nD τ).loc main_arg6) := by
  refine (W5_of_ne m ρ c main_arg6 (by decide)).trans ((W4_of_ne m ρ c main_arg6 (by decide)).trans ?_)
  show StableHlo.after hostOps0_2 (StableHlo.after hostOps0_1 (StableHlo.after hostOps0 (W0 m ρ c))) (Proc.devRef .tc main_arg6) = _
  after_results_simp
theorem arg7_kept (c : Dev nD) : W5 m ρ c (Proc.devRef .tc main_arg7) = m ((c.tc : Thread nD τ).loc main_arg7) := by
  refine (W5_of_ne m ρ c main_arg7 (by decide)).trans ((W4_of_ne m ρ c main_arg7 (by decide)).trans ?_)
  show StableHlo.after hostOps0_2 (StableHlo.after hostOps0_1 (StableHlo.after hostOps0 (W0 m ρ c))) (Proc.devRef .tc main_arg7) = _
  after_results_simp

/-- The third region's left operand: the second region's rows gathered at the sources, scaled by the weights and
    scatter-added at the targets. -/
theorem entry2_agg (c : Dev nD) :
    W6 m ρ c (Proc.devRef .tc main_v59)
      = Edge.scat (F := F) (extf .f32 (Edge.take (F := F) (φ := .bf16) (W5 m ρ c (Proc.devRef .tc main_v45)) (Edge.srcs (m ((c.tc : Thread nD τ).loc main_arg1)))) Facts₀.bitsLt_bf16_f32)
          (Edge.dsts (m ((c.tc : Thread nD τ).loc main_arg1))) (Edge.norm (m ((c.tc : Thread nD τ).loc main_arg1))) := by
  show StableHlo.after hostOps2 (W5 m ρ c) (Proc.devRef .tc main_v59) = _
  after_results_simp
  rw [srcs_kept, dsts_kept, norm_kept]
  rfl

/-- Its biases are `b2` and `bc` as one row each, its weights the launched `Wc`. -/
theorem entry2_b (c : Dev nD) :
    W6 m ρ c (Proc.devRef .tc main_v60) = shapeCast S1x128 (m ((c.tc : Thread nD τ).loc main_arg5)) Facts₀.shapeCasts_S128_S1x128 := by
  show StableHlo.after hostOps2 (W5 m ρ c) (Proc.devRef .tc main_v60) = _
  after_results_simp
  rw [arg5_kept]
  rfl
theorem entry2_w (c : Dev nD) : W6 m ρ c (Proc.devRef .tc main_arg6) = m ((c.tc : Thread nD τ).loc main_arg6) := by
  show StableHlo.after hostOps2 (W5 m ρ c) (Proc.devRef .tc main_arg6) = _
  after_results_simp
  exact arg6_kept m ρ c
theorem entry2_c (c : Dev nD) :
    W6 m ρ c (Proc.devRef .tc main_v61) = shapeCast S1x40 (m ((c.tc : Thread nD τ).loc main_arg7)) Facts₀.shapeCasts_S40_S1x40 := by
  show StableHlo.after hostOps2 (W5 m ρ c) (Proc.devRef .tc main_v61) = _
  after_results_simp
  rw [arg7_kept]
  rfl

end Cert.KernelIdeal.KHost

end
-- ==== Proof.Spec.lean ====
/-
  The three dense layers of the two-layer graph convolution, each as ONE function of whole arrays on the extended reals.

  The kernel computes a layer block of rows by block of rows; what a block holds does not depend on the block, so the
  whole result array is the function below of the whole operands:
  * `denseRelu a w b`    — `max (a · w + b) 0`: a matrix product, a bias row added to every row, the positive part;
  * `dense a w`          — `a · w`;
  * `preactDense a b w c` — `max (a + b) 0 · w + c`: bias and positive part BEFORE the product, a second bias after it.
  A product is read at `(p, q)` as the sum over `k` of `a (p, k) · w (k, q)` (`rowCol`).
-/
import Idealize.ShloMosaic.PureOps.Ideal.Laws
import Idealize.ShloMosaic.Lib.ValueIdx

noncomputable section

namespace Cert.Spec

open Idealize.ShloMosaic Idealize.ShloMosaic.ValueIdx
open scoped BigOperators

variable {n K M : ℕ}

/-- Row `p` of `a` against column `q` of `w`. -/
def rowCol (a : (⟨2, ![n, K]⟩ : Shape).Idx → EReal) (w : (⟨2, ![K, M]⟩ : Shape).Idx → EReal) (p : Fin n) (q : Fin M) : EReal :=
  ∑ k : Fin K, a (ix2 p k) * w (ix2 k q)

/-- `max (a · w + b) 0`, the bias `b` one row added to every row. -/
def denseRelu (a : (⟨2, ![n, K]⟩ : Shape).Idx → EReal) (w : (⟨2, ![K, M]⟩ : Shape).Idx → EReal)
    (b : (⟨2, ![1, M]⟩ : Shape).Idx → EReal) : (⟨2, ![n, M]⟩ : Shape).Idx → EReal :=
  fun j => max (rowCol a w (j 0) (j 1) + b (ix2 0 (j 1))) 0

/-- `a · w`. -/
def dense (a : (⟨2, ![n, K]⟩ : Shape).Idx → EReal) (w : (⟨2, ![K, M]⟩ : Shape).Idx → EReal) :
    (⟨2, ![n, M]⟩ : Shape).Idx → EReal :=
  fun j => rowCol a w (j 0) (j 1)

/-- `max (a + b) 0 · w + c`, the biases `b` and `c` one row each. -/
def preactDense (a : (⟨2, ![n, K]⟩ : Shape).Idx → EReal) (b : (⟨2, ![1, K]⟩ : Shape).Idx → EReal)
    (w : (⟨2, ![K, M]⟩ : Shape).Idx → EReal) (c : (⟨2, ![1, M]⟩ : Shape).Idx → EReal) :
    (⟨2, ![n, M]⟩ : Shape).Idx → EReal :=
  fun j => (∑ k : Fin K, max (a (ix2 (j 0) k) + b (ix2 0 k)) 0 * w (ix2 k (j 1))) + c (ix2 0 (j 1))

end Cert.Spec

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Regions0.lean ====
/-
  The first dense layer, read off its region as one function of whole arrays.

  The region walks the 50000 rows of its left operand in ten blocks of 5000 rows; at each block it multiplies the block by
  the whole right operand, adds the bias row to every row and takes the positive part, and writes the result to the same ten
  rows of the result array. An entry of a block's result depends only on its own row of the left operand, so the ten written
  blocks are the blocks of ONE array, `max (a · w + b) 0` of the three arrays the region finds (`Cert.Spec.denseRelu`), and they
  cover the result array.
-/
import proofs.«158695_j36636071034924_2_alg».proof.Proof.Gen.KernelIdeal.Frame
import proofs.«158695_j36636071034924_2_alg».proof.Proof.Spec
import proofs.«158695_j36636071034924_2_alg».proof.Proof.LibMatDot
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Region 0: a matrix product, a bias row, the positive part -/

/-- What the first region's body stores, read at row `p` and column `q` of its block: row `p` of the block of the left
    operand against column `q` of the right one (the two roundings to bf16 change nothing on the extended reals, and the
    accumulator starts at zero), plus the bias row at `q`, and then the positive part. -/
theorem pay0_at (x0 : Vec Ideal S5000x128 .f32) (x1 : Vec Ideal S128x256 .f32) (x2 : Vec Ideal S1x256 .f32)
    (p : Fin 5000) (q : Fin 256) :
    Gen.k0_pay1 x0 x1 x2 (ix2 p q) = max ((∑ k : Fin 128, x0 (ix2 p k) * x1 (ix2 k q)) + x2 (ix2 0 q)) 0 := by
  unfold Gen.k0_pay1
  simp only [shapeCast_self]
  refine congrArg₂ max (congrArg₂ (· + ·) ?_ ?_) Ideal.ofBits_zero_f32
  · exact Cert.Lib.matmul_plain_zero_apply dot_S5000x128_S128x256_S5000x256_1_0_0_1_n_n.wf none _ _ p q
  · exact broadcastTo_1b_ab_apply x2 _ p q

variable (V : (c : Dev nD) → (b : Ref sig .tc) → Buf (Elt Ideal) ((c : Thread nD τ).loc b)) (c : Dev nD)

/-- The zero offsets of a load or store of a whole staging buffer. -/
theorem hz0 : (![0, 0] : Fin 2 → Nat) = fun _ => 0 := funext fun a => by fin_cases a <;> rfl

/-- The first region's index maps, over its ten grid points: the blocks of the left operand and of the result move
    with the point along the rows; the right operand and the bias row are one block each. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of the left operand at grid point `t` is rows `5000 t … 5000 t + 4999` of the array the region finds. -/
theorem iblk0_0_at (t : Fin cfg0.N) (p : Fin 5000) (k : Fin 128) (r : Fin 50000) (hr : r.val = t.val * 5000 + p.val) :
    (Gen.iblk0 V c 0 t : Vec Ideal S5000x128 .f32) (ix2 p k) = (V c (Pipeline.arrRef spec0 0) : S50000x128.Idx → EReal) (ix2 r k) := by
  obtain ⟨e0, e1, -⟩ := idx0 t
  unfold Gen.iblk0
  rw [View.read_apply]
  show (V c (Pipeline.arrRef spec0 0) : S50000x128.Idx → EReal) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The right operand's one block is the whole array, at every point. -/
theorem iblk0_1_eq (t : Fin cfg0.N) :
    (Gen.iblk0 V c 1 t : Vec Ideal S128x256 .f32) = (V c (Pipeline.arrRef spec0 1) : S128x256.Idx → EReal) := by
  obtain ⟨-, -, e0, e1, -⟩ := idx0 t
  unfold Gen.iblk0
  funext y
  rw [View.read_apply]
  show (V c (Pipeline.arrRef spec0 1) : S128x256.Idx → EReal) _ = _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- So is the bias row's. -/
theorem iblk0_2_eq (t : Fin cfg0.N) :
    (Gen.iblk0 V c 2 t : Vec Ideal S1x256 .f32) = (V c (Pipeline.arrRef spec0 2) : S1x256.Idx → EReal) := by
  obtain ⟨-, -, -, -, e0, e1, -⟩ := idx0 t
  unfold Gen.iblk0
  funext y
  rw [View.read_apply]
  show (V c (Pipeline.arrRef spec0 2) : S1x256.Idx → EReal) _ = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- At one grid point: if the left block is rows `5000 n …` of `a` and the other two blocks are `w` and `b`, what the
    body stores at `(p, q)` is the whole-array layer at `(5000 n + p, q)`. -/
theorem point0_at (a : S50000x128.Idx → EReal) (w : S128x256.Idx → EReal) (b : S1x256.Idx → EReal)
    (x0 : Vec Ideal S5000x128 .f32) (x1 : Vec Ideal S128x256 .f32) (x2 : Vec Ideal S1x256 .f32) (n : ℕ)
    (h0 : ∀ (p : Fin 5000) (k : Fin 128) (r : Fin 50000), r.val = n * 5000 + p.val → x0 (ix2 p k) = a (ix2 r k))
    (h1 : x1 = w) (h2 : x2 = b) (p : Fin 5000) (q : Fin 256) (r : Fin 50000) (hr : r.val = n * 5000 + p.val) :
    Gen.k0_pay1 x0 x1 x2 (ix2 p q) = Cert.Spec.denseRelu a w b (ix2 r q) := by
  subst h1 h2
  rw [pay0_at]
  show _ = max ((∑ k : Fin 128, a (ix2 r k) * x1 (ix2 k q)) + x2 (ix2 0 q)) 0
  simp only [h0 p _ r hr]

/-- What grid point `t` writes back to the result array is block `t` of the whole-array layer of the arrays the region
    finds: the body stores its one payload over the whole staging buffer, and the payload's entries are the layer's. -/
theorem flushed0_eq (t : Fin cfg0.N) :
    (Gen.dat0 (F := Ideal) V c).flushed 3 t = ((cfg0.win 3).blk t).view.read (Elt Ideal)
      (Cert.Spec.denseRelu (V c (Pipeline.arrRef spec0 0)) (V c (Pipeline.arrRef spec0 1)) (V c (Pipeline.arrRef spec0 2))) := by
  obtain ⟨-, -, -, -, -, -, e0, e1⟩ := idx0 t
  show (cfg0.win 3).cut (grid0.coords t) ((Gen.dat0 V c).after 3 t) = _
  rw [Gen.after0_3]
  unfold Gen.out0_3
  rw [View.canon_unit_zero hz0]
  simp only [View.ld_unit_zero (S := S5000x128) hz0, View.ld_unit_zero (S := S128x256) hz0, View.ld_unit_zero (S := S1x256) hz0]
  funext j
  rw [View.read_apply]
  have hj0 : (j 0).val < 5000 := (j 0).isLt
  have hj1 : (j 1).val < 256 := (j 1).isLt
  have ht : t.val < 10 := (show cfg0.N = 10 from Gen.N_0) ▸ t.isLt
  have ej : (win0_3.xinj (grid0.coords t) j : S5000x256.Idx) = ix2 ⟨(j 0).val, hj0⟩ ⟨(j 1).val, hj1⟩ :=
    funext fun a => Fin.ext (by match a with | ⟨0, _⟩ => rfl | ⟨1, _⟩ => rfl)
  have eb : (((View.whole main_v44).slice (win0_3.rect t)).emb j : S50000x256.Idx)
      = ix2 ⟨t.val * 5000 + (j 0).val, by omega⟩ ⟨(j 1).val, hj1⟩ :=
    funext fun a => Fin.ext (by
      match a with
      | ⟨0, _⟩ => show win0_3.index t (0 : Fin 2) * 5000 + 1 * (j 0).val = t.val * 5000 + (j 0).val; rw [e0]; omega
      | ⟨1, _⟩ => show win0_3.index t (1 : Fin 2) * 256 + 1 * (j 1).val = (j 1).val; rw [e1]; omega)
  show Gen.k0_pay1 (F := Ideal) _ _ _ (win0_3.xinj (grid0.coords t) j)
    = Cert.Spec.denseRelu _ _ _ (((View.whole main_v44).slice (win0_3.rect t)).emb j)
  rw [ej, eb]
  exact point0_at _ _ _ (Gen.iblk0 V c 0 t) (Gen.iblk0 V c 1 t) (Gen.iblk0 V c 2 t) t.val
    (fun p k r hr => iblk0_0_at V c t p k r hr) (iblk0_1_eq V c t) (iblk0_2_eq V c t) _ _ _ rfl

/-- An index of the result array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v44).slice (win0_3.rect t)).set ↔ _
  rw [View.set_slice_whole, Rect.mem_set_unit]
  exact Iff.rfl

/-- The ten blocks of 5000 rows cover the result array: row `r` is in the block of point `r / 5000`. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by rw [show cfg0.N = 10 from Gen.N_0]; omega⟩, rfl⟩
  obtain ⟨-, -, -, -, -, -, e0, e1⟩ := idx0 t
  refine ⟨t, Gen.flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 256 ≤ (i 1).val ∧ (i 1).val < win0_3.index t (1 : Fin 2) * 256 + 256
    rw [e1]; omega

/-- THE FIRST REGION'S RESULT ARRAY: `max (a · w + b) 0` of the three arrays the region finds. -/
theorem arr0 : (Gen.dat0 (F := Ideal) V c).arrAt 3 cfg0.N
    = Cert.Spec.denseRelu (V c (Pipeline.arrRef spec0 0)) (V c (Pipeline.arrRef spec0 1)) (V c (Pipeline.arrRef spec0 2)) :=
  (Gen.dat0 (F := Ideal) V c).arrAt_eq_of_cover 3 _ (fun t _ => flushed0_eq V c t) cover0

end Cert.KernelIdeal.Regions

end
-- ==== Proof.Regions1.lean ====
/-
  The second dense layer, read off its region as one function of whole arrays.

  The region walks the 50000 rows of its left operand in ten blocks of 5000 rows, multiplies each block by the whole right
  operand and writes the product, rounded to bf16 — no change on the extended reals —, to the same ten rows of the result
  array. An entry of a block's product depends only on its own row of the left operand, so the ten written blocks are the
  blocks of ONE array, the product `a · w` of the two arrays the region finds (`Cert.Spec.dense`), and they cover the result
  array.
-/
import proofs.«158695_j36636071034924_2_alg».proof.Proof.Gen.KernelIdeal.Frame
import proofs.«158695_j36636071034924_2_alg».proof.Proof.Spec
import proofs.«158695_j36636071034924_2_alg».proof.Proof.LibMatDot
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Region 1: a matrix product -/

/-- What the second region's body stores, read at row `p` and column `q` of its block: row `p` of the block of the left
    operand against column `q` of the right one (the roundings to bf16, of the operands and of the product, change nothing
    on the extended reals, and the accumulator starts at zero). -/
theorem pay1_at (x0 : Vec Ideal S5000x256 .f32) (x1 : Vec Ideal S256x128 .f32) (p : Fin 5000) (q : Fin 128) :
    Gen.k1_pay1 x0 x1 (ix2 p q) = ∑ k : Fin 256, x0 (ix2 p k) * x1 (ix2 k q) := by
  unfold Gen.k1_pay1
  simp only [shapeCast_self]
  exact Cert.Lib.matmul_plain_zero_apply dot_S5000x256_S256x128_S5000x128_1_0_0_1_n_n.wf none _ _ p q

variable (V : (c : Dev nD) → (b : Ref sig .tc) → Buf (Elt Ideal) ((c : Thread nD τ).loc b)) (c : Dev nD)

/-- The zero offsets of a load or store of a whole staging buffer. -/
theorem hz1 : (![0, 0] : Fin 2 → Nat) = fun _ => 0 := funext fun a => by fin_cases a <;> rfl

/-- The second region's index maps, over its ten grid points: the blocks of the left operand and of the result move
    with the point along the rows; the right operand is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of the left operand at grid point `t` is rows `5000 t … 5000 t + 4999` of the array the region finds. -/
theorem iblk1_0_at (t : Fin cfg1.N) (p : Fin 5000) (k : Fin 256) (r : Fin 50000) (hr : r.val = t.val * 5000 + p.val) :
    (Gen.iblk1 V c 0 t : Vec Ideal S5000x256 .f32) (ix2 p k) = (V c (Pipeline.arrRef spec1 0) : S50000x256.Idx → EReal) (ix2 r k) := by
  obtain ⟨e0, e1, -⟩ := idx1 t
  unfold Gen.iblk1
  rw [View.read_apply]
  show (V c (Pipeline.arrRef spec1 0) : S50000x256.Idx → EReal) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- The right operand's one block is the whole array, at every point. -/
theorem iblk1_1_eq (t : Fin cfg1.N) :
    (Gen.iblk1 V c 1 t : Vec Ideal S256x128 .f32) = (V c (Pipeline.arrRef spec1 1) : S256x128.Idx → EReal) := by
  obtain ⟨-, -, e0, e1, -⟩ := idx1 t
  unfold Gen.iblk1
  funext y
  rw [View.read_apply]
  show (V c (Pipeline.arrRef spec1 1) : S256x128.Idx → EReal) _ = _
  refine congrArg _ (funext fun a => Fin.ext ?_)
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

/-- At one grid point: if the left block is rows `5000 n …` of `a` and the other block is `w`, what the body stores at
    `(p, q)` is the whole-array product at `(5000 n + p, q)`. -/
theorem point1_at (a : S50000x256.Idx → EReal) (w : S256x128.Idx → EReal)
    (x0 : Vec Ideal S5000x256 .f32) (x1 : Vec Ideal S256x128 .f32) (n : ℕ)
    (h0 : ∀ (p : Fin 5000) (k : Fin 256) (r : Fin 50000), r.val = n * 5000 + p.val → x0 (ix2 p k) = a (ix2 r k))
    (h1 : x1 = w) (p : Fin 5000) (q : Fin 128) (r : Fin 50000) (hr : r.val = n * 5000 + p.val) :
    Gen.k1_pay1 x0 x1 (ix2 p q) = Cert.Spec.dense a w (ix2 r q) := by
  subst h1
  rw [pay1_at]
  show _ = ∑ k : Fin 256, a (ix2 r k) * x1 (ix2 k q)
  simp only [h0 p _ r hr]

/-- What grid point `t` writes back to the result array is block `t` of the whole-array product of the arrays the region
    finds: the body stores its one payload over the whole staging buffer, and the payload's entries are the product's. -/
theorem flushed1_eq (t : Fin cfg1.N) :
    (Gen.dat1 (F := Ideal) V c).flushed 2 t = ((cfg1.win 2).blk t).view.read (Elt Ideal)
      (Cert.Spec.dense (V c (Pipeline.arrRef spec1 0)) (V c (Pipeline.arrRef spec1 1))) := by
  obtain ⟨-, -, -, -, e0, e1⟩ := idx1 t
  show (cfg1.win 2).cut (grid1.coords t) ((Gen.dat1 V c).after 2 t) = _
  rw [Gen.after1_2]
  unfold Gen.out1_2
  rw [View.canon_unit_zero hz1]
  simp only [View.ld_unit_zero (S := S5000x256) hz1, View.ld_unit_zero (S := S256x128) hz1]
  funext j
  rw [View.read_apply]
  have hj0 : (j 0).val < 5000 := (j 0).isLt
  have hj1 : (j 1).val < 128 := (j 1).isLt
  have ht : t.val < 10 := (show cfg1.N = 10 from Gen.N_1) ▸ t.isLt
  have ej : (win1_2.xinj (grid1.coords t) j : S5000x128.Idx) = ix2 ⟨(j 0).val, hj0⟩ ⟨(j 1).val, hj1⟩ :=
    funext fun a => Fin.ext (by match a with | ⟨0, _⟩ => rfl | ⟨1, _⟩ => rfl)
  have eb : (((View.whole main_v45).slice (win1_2.rect t)).emb j : S50000x128.Idx)
      = ix2 ⟨t.val * 5000 + (j 0).val, by omega⟩ ⟨(j 1).val, hj1⟩ :=
    funext fun a => Fin.ext (by
      match a with
      | ⟨0, _⟩ => show win1_2.index t (0 : Fin 2) * 5000 + 1 * (j 0).val = t.val * 5000 + (j 0).val; rw [e0]; omega
      | ⟨1, _⟩ => show win1_2.index t (1 : Fin 2) * 128 + 1 * (j 1).val = (j 1).val; rw [e1]; omega)
  show Gen.k1_pay1 (F := Ideal) _ _ (win1_2.xinj (grid1.coords t) j)
    = Cert.Spec.dense _ _ (((View.whole main_v45).slice (win1_2.rect t)).emb j)
  rw [ej, eb]
  exact point1_at _ _ (Gen.iblk1 V c 0 t) (Gen.iblk1 V c 1 t) t.val
    (fun p k r hr => iblk1_0_at V c t p k r hr) (iblk1_1_eq V c t) _ _ _ rfl

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- The ten blocks of 5000 rows cover the result array: row `r` is in the block of point `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from Gen.N_1]; omega⟩, rfl⟩
  obtain ⟨-, -, -, -, e0, e1⟩ := idx1 t
  refine ⟨t, Gen.flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

/-- THE SECOND REGION'S RESULT ARRAY: the product `a · w` of the two arrays the region finds. -/
theorem arr1 : (Gen.dat1 (F := Ideal) V c).arrAt 2 cfg1.N
    = Cert.Spec.dense (V c (Pipeline.arrRef spec1 0)) (V c (Pipeline.arrRef spec1 1)) :=
  (Gen.dat1 (F := Ideal) V c).arrAt_eq_of_cover 2 _ (fun t _ => flushed1_eq V c t) cover1

end Cert.KernelIdeal.Regions

end
-- ==== Proof.Regions2.lean ====
/-
  The third dense layer, read off its region as one function of whole arrays.

  The region walks the 50000 rows of its left operand in ten blocks of 5000 rows; at each block it adds the first bias row to
  every row and takes the positive part, multiplies by the whole right operand, adds the second bias row to every row, and
  writes the result to the same ten rows of the result array. An entry of a block's result depends only on its own row of
  the left operand, so the ten written blocks are the blocks of ONE array, `max (a + b) 0 · w + c` of the four arrays the
  region finds (`Cert.Spec.preactDense`), and they cover the result array.
-/
import proofs.«158695_j36636071034924_2_alg».proof.Proof.Gen.KernelIdeal.Frame
import proofs.«158695_j36636071034924_2_alg».proof.Proof.Spec
import proofs.«158695_j36636071034924_2_alg».proof.Proof.LibMatDot
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Region 2: a bias row and the positive part, a matrix product, a second bias row -/

/-- What the third region's body stores, read at row `p` and column `q` of its block: row `p` of the block of the left
    operand, the first bias row added and the positive part taken, against column `q` of the right operand (the two
    roundings to bf16 change nothing on the extended reals, and the accumulator starts at zero), plus the second bias row
    at `q`. -/
theorem pay2_at (x0 : Vec Ideal S5000x128 .f32) (x1 : Vec Ideal S1x128 .f32) (x2 : Vec Ideal S128x40 .f32)
    (x3 : Vec Ideal S1x40 .f32) (p : Fin 5000) (q : Fin 40) :
    Gen.k2_pay1 x0 x1 x2 x3 (ix2 p q)
      = (∑ k : Fin 128, max (x0 (ix2 p k) + x1 (ix2 0 k)) 0 * x2 (ix2 k q)) + x3 (ix2 0 q) := by
  unfold Gen.k2_pay1
  simp only [shapeCast_self]
  refine congrArg₂ (· + ·) ?_ (broadcastTo_1b_ab_apply x3 _ p q)
  refine (Cert.Lib.matmul_plain_zero_apply dot_S5000x128_S128x40_S5000x40_1_0_0_1_n_n.wf none _ _ p q).trans ?_
  refine Finset.sum_congr rfl fun k _ => congrArg₂ (· * ·) ?_ rfl
  exact congrArg₂ max (congrArg₂ (· + ·) rfl (broadcastTo_1b_ab_apply x1 _ p k)) Ideal.ofBits_zero_f32

variable (V : (c : Dev nD) → (b : Ref sig .tc) → Buf (Elt Ideal) ((c : Thread nD τ).loc b)) (c : Dev nD)

/-- The zero offsets of a load or store of a whole staging buffer. -/
theorem hz2 : (![0, 0] : Fin 2 → Nat) = fun _ => 0 := funext fun a => by fin_cases a <;> rfl

/-- The third region's index maps, over its ten grid points: the blocks of the left operand and of the result move
    with the point along the rows; the right operand and the two bias rows are one block each. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The block of the left operand at grid point `t` is rows `5000 t … 5000 t + 4999` of the array the region finds. -/
theorem iblk2_0_at (t : Fin cfg2.N) (p : Fin 5000) (k : Fin 128) (r : Fin 50000) (hr : r.val = t.val * 5000 + p.val) :
    (Gen.iblk2 V c 0 t : Vec Ideal S5000x128 .f32) (ix2 p k) = (V c (Pipeline.arrRef spec2 0) : S50000x128.Idx → EReal) (ix2 r k) := by
  obtain ⟨e0, e1, -⟩ := idx2 t
  unfold Gen.iblk2
  rw [View.read_apply]
  show (V c (Pipeline.arrRef spec2 0) : S50000x128.Idx → EReal) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The first bias row's one block is the whole array, at every point. -/
theorem iblk2_1_eq (t : Fin cfg2.N) :
    (Gen.iblk2 V c 1 t : Vec Ideal S1x128 .f32) = (V c (Pipeline.arrRef spec2 1) : S1x128.Idx → EReal) := by
  obtain ⟨-, -, e0, e1, -⟩ := idx2 t
  unfold Gen.iblk2
  funext y
  rw [View.read_apply]
  show (V c (Pipeline.arrRef spec2 1) : S1x128.Idx → EReal) _ = _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- So is the right operand's, -/
theorem iblk2_2_eq (t : Fin cfg2.N) :
    (Gen.iblk2 V c 2 t : Vec Ideal S128x40 .f32) = (V c (Pipeline.arrRef spec2 2) : S128x40.Idx → EReal) := by
  obtain ⟨-, -, -, -, e0, e1, -⟩ := idx2 t
  unfold Gen.iblk2
  funext y
  rw [View.read_apply]
  show (V c (Pipeline.arrRef spec2 2) : S128x40.Idx → EReal) _ = _
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 40 + 1 * (y 1).val = (y 1).val; rw [e1]; omega

/-- and the second bias row's. -/
theorem iblk2_3_eq (t : Fin cfg2.N) :
    (Gen.iblk2 V c 3 t : Vec Ideal S1x40 .f32) = (V c (Pipeline.arrRef spec2 3) : S1x40.Idx → EReal) := by
  obtain ⟨-, -, -, -, -, -, e0, e1, -⟩ := idx2 t
  unfold Gen.iblk2
  funext y
  rw [View.read_apply]
  show (V c (Pipeline.arrRef spec2 3) : S1x40.Idx → EReal) _ = _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 40 + 1 * (y 1).val = (y 1).val; rw [e1]; omega

/-- At one grid point: if the left block is rows `5000 n …` of `a` and the other three blocks are `b`, `w` and `d`, what
    the body stores at `(p, q)` is the whole-array layer at `(5000 n + p, q)`. -/
theorem point2_at (a : S50000x128.Idx → EReal) (b : S1x128.Idx → EReal) (w : S128x40.Idx → EReal) (d : S1x40.Idx → EReal)
    (x0 : Vec Ideal S5000x128 .f32) (x1 : Vec Ideal S1x128 .f32) (x2 : Vec Ideal S128x40 .f32) (x3 : Vec Ideal S1x40 .f32)
    (n : ℕ)
    (h0 : ∀ (p : Fin 5000) (k : Fin 128) (r : Fin 50000), r.val = n * 5000 + p.val → x0 (ix2 p k) = a (ix2 r k))
    (h1 : x1 = b) (h2 : x2 = w) (h3 : x3 = d) (p : Fin 5000) (q : Fin 40) (r : Fin 50000) (hr : r.val = n * 5000 + p.val) :
    Gen.k2_pay1 x0 x1 x2 x3 (ix2 p q) = Cert.Spec.preactDense a b w d (ix2 r q) := by
  subst h1 h2 h3
  rw [pay2_at]
  show _ = (∑ k : Fin 128, max (a (ix2 r k) + x1 (ix2 0 k)) 0 * x2 (ix2 k q)) + x3 (ix2 0 q)
  simp only [h0 p _ r hr]

/-- What grid point `t` writes back to the result array is block `t` of the whole-array layer of the arrays the region
    finds: the body stores its one payload over the whole staging buffer, and the payload's entries are the layer's. -/
theorem flushed2_eq (t : Fin cfg2.N) :
    (Gen.dat2 (F := Ideal) V c).flushed 4 t = ((cfg2.win 4).blk t).view.read (Elt Ideal)
      (Cert.Spec.preactDense (V c (Pipeline.arrRef spec2 0)) (V c (Pipeline.arrRef spec2 1))
        (V c (Pipeline.arrRef spec2 2)) (V c (Pipeline.arrRef spec2 3))) := by
  obtain ⟨-, -, -, -, -, -, -, -, e0, e1⟩ := idx2 t
  show (cfg2.win 4).cut (grid2.coords t) ((Gen.dat2 V c).after 4 t) = _
  rw [Gen.after2_4]
  unfold Gen.out2_4
  rw [View.canon_unit_zero hz2]
  simp only [View.ld_unit_zero (S := S5000x128) hz2, View.ld_unit_zero (S := S1x128) hz2,
    View.ld_unit_zero (S := S128x40) hz2, View.ld_unit_zero (S := S1x40) hz2]
  funext j
  rw [View.read_apply]
  have hj0 : (j 0).val < 5000 := (j 0).isLt
  have hj1 : (j 1).val < 40 := (j 1).isLt
  have ht : t.val < 10 := (show cfg2.N = 10 from Gen.N_2) ▸ t.isLt
  have ej : (win2_4.xinj (grid2.coords t) j : S5000x40.Idx) = ix2 ⟨(j 0).val, hj0⟩ ⟨(j 1).val, hj1⟩ :=
    funext fun a => Fin.ext (by match a with | ⟨0, _⟩ => rfl | ⟨1, _⟩ => rfl)
  have eb : (((View.whole main_v62).slice (win2_4.rect t)).emb j : S50000x40.Idx)
      = ix2 ⟨t.val * 5000 + (j 0).val, by omega⟩ ⟨(j 1).val, hj1⟩ :=
    funext fun a => Fin.ext (by
      match a with
      | ⟨0, _⟩ => show win2_4.index t (0 : Fin 2) * 5000 + 1 * (j 0).val = t.val * 5000 + (j 0).val; rw [e0]; omega
      | ⟨1, _⟩ => show win2_4.index t (1 : Fin 2) * 40 + 1 * (j 1).val = (j 1).val; rw [e1]; omega)
  show Gen.k2_pay1 (F := Ideal) _ _ _ _ (win2_4.xinj (grid2.coords t) j)
    = Cert.Spec.preactDense _ _ _ _ (((View.whole main_v62).slice (win2_4.rect t)).emb j)
  rw [ej, eb]
  exact point2_at _ _ _ _ (Gen.iblk2 V c 0 t) (Gen.iblk2 V c 1 t) (Gen.iblk2 V c 2 t) (Gen.iblk2 V c 3 t) t.val
    (fun p k r hr => iblk2_0_at V c t p k r hr) (iblk2_1_eq V c t) (iblk2_2_eq V c t) (iblk2_3_eq V c t) _ _ _ rfl

/-- An index of the result array is in point `t`'s block iff each coordinate is in the block's range on its axis. -/
theorem mem_blk2 (t : Fin cfg2.N) (i : S50000x40.Idx) :
    i ∈ ((cfg2.win 4).blk t).view.set ↔ ∀ a : Fin 2, win2_4.index t a * S5000x40.size a ≤ (i a).val
      ∧ (i a).val < win2_4.index t a * S5000x40.size a + S5000x40.size a := by
  show i ∈ ((View.whole main_v62).slice (win2_4.rect t)).set ↔ _
  rw [View.set_slice_whole, Rect.mem_set_unit]
  exact Iff.rfl

/-- The ten blocks of 5000 rows cover the result array: row `r` is in the block of point `r / 5000`. -/
theorem cover2 (i : S50000x40.Idx) :
    ∃ t : Fin cfg2.N, (cfg2.win 4).flush t = true ∧ i ∈ ((cfg2.win 4).blk t).view.set := by
  have hi0 : (i 0).val < 50000 := (i 0).isLt
  have hi1 : (i 1).val < 40 := (i 1).isLt
  obtain ⟨t, ht⟩ : ∃ t : Fin cfg2.N, t.val = (i 0).val / 5000 :=
    ⟨⟨(i 0).val / 5000, by rw [show cfg2.N = 10 from Gen.N_2]; omega⟩, rfl⟩
  obtain ⟨-, -, -, -, -, -, -, -, e0, e1⟩ := idx2 t
  refine ⟨t, Gen.flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 40 ≤ (i 1).val ∧ (i 1).val < win2_4.index t (1 : Fin 2) * 40 + 40
    rw [e1]; omega

/-- THE THIRD REGION'S RESULT ARRAY: `max (a + b) 0 · w + c` of the four arrays the region finds. -/
theorem arr2 : (Gen.dat2 (F := Ideal) V c).arrAt 4 cfg2.N
    = Cert.Spec.preactDense (V c (Pipeline.arrRef spec2 0)) (V c (Pipeline.arrRef spec2 1))
        (V c (Pipeline.arrRef spec2 2)) (V c (Pipeline.arrRef spec2 3)) :=
  (Gen.dat2 (F := Ideal) V c).arrAt_eq_of_cover 4 _ (fun t _ => flushed2_eq V c t) cover2

end Cert.KernelIdeal.Regions

end
-- ==== Proof.Regions.lean ====
/-
  The kernel's three dense layers, each read off its region as ONE function of the whole arrays the region finds
  (namespace `Cert.KernelIdeal.Regions`):
  * `arr0` — the first region's result array is `max (a · w + b) 0` (`Cert.Spec.denseRelu`);
  * `arr1` — the second region's is the product `a · w` (`Cert.Spec.dense`);
  * `arr2` — the third region's is `max (a + b) 0 · w + c` (`Cert.Spec.preactDense`).
  Each is stated for any contents of the buffers at the region's entry, so it can be used at whatever the operations before
  the region have left there. The three are independent of one another.
-/
import proofs.«158695_j36636071034924_2_alg».proof.Proof.Regions0
import proofs.«158695_j36636071034924_2_alg».proof.Proof.Regions1
import proofs.«158695_j36636071034924_2_alg».proof.Proof.Regions2
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibEdgeAgg.lean ====
/-
  The weighted neighbourhood sum of a graph layer, read at an index.

  For a matrix `h : [N, D]`, two vectors of `R` row numbers `sw` (sources) and `dv` (targets) and a vector of `R`
  weights `nrm`, the layer takes the rows `h[sw]`, scales row `e` by `nrm(e)`, and adds it into row `dv(e)` of an
  all-zero `[N, D]` accumulator. The vectors travel as one-column matrices `[R, 1]`, the weights stretched to `[R, D]`.
  Entry `(p, k)` of the result is the sum, over the edges `e` whose target `dv(e)`, read as a signed integer, is `p`, of
  `h(sw(e), k) · nrm(e)`, the source row read signed and clamped into `[0, N − 1]`.
-/
import proofs.«158695_j36636071034924_2_alg».proof.Proof.LibEdgeRows
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

variable {α : Type}

/-- A vector carried as a one-column matrix, read at `(e, u)`: the vector at `e`. -/
theorem col_apply {R : ℕ} (hc : (⟨1, ![R]⟩ : Shape).BroadcastsInDim ⟨2, ![R, 1]⟩ (![0] : Fin 1 → Fin 2))
    (v : (⟨1, ![R]⟩ : Shape).Idx → α) (e : Fin R) (u : Fin 1) :
    broadcastInDim ⟨2, ![R, 1]⟩ ![0] hc v (ix2 e u) = v (ix1 e) := by
  refine broadcastInDim_apply _ hc v (ix2 e u) (ix1 e) ?_
  intro a
  match a with
  | ⟨0, _⟩ =>
    show e.val = if R = 1 then 0 else e.val
    have := e.isLt
    split <;> omega

/-- A one-column matrix stretched along its rows to `D` columns, read at `(e, k)`: the column at `(e, 0)`. -/
theorem stretch_apply {R D : ℕ} (hb : (⟨2, ![R, 1]⟩ : Shape).BroadcastsInDim ⟨2, ![R, D]⟩ (![0, 1] : Fin 2 → Fin 2))
    (y : (⟨2, ![R, 1]⟩ : Shape).Idx → α) (e : Fin R) (k : Fin D) :
    broadcastInDim ⟨2, ![R, D]⟩ ![0, 1] hb y (ix2 e k) = y (ix2 e (0 : Fin 1)) := by
  refine broadcastInDim_apply _ hb y (ix2 e k) (ix2 e (0 : Fin 1)) ?_
  intro a
  match a with
  | ⟨0, _⟩ =>
    show e.val = if R = 1 then 0 else e.val
    have := e.isLt
    split <;> omega
  | ⟨1, _⟩ =>
    show (0 : ℕ) = if (1 : ℕ) = 1 then 0 else k.val
    rfl

/-- The all-zero matrix (the zero word at every entry), read at any index: the extended real `0`. -/
theorem zeros_apply {N D : ℕ} (hz : (⟨0, ![]⟩ : Shape).BroadcastsInDim ⟨2, ![N, D]⟩ (![] : Fin 0 → Fin 2))
    (i : (⟨2, ![N, D]⟩ : Shape).Idx) :
    broadcastInDim ⟨2, ![N, D]⟩ ![] hz (constant (F := Ideal) ⟨0, ![]⟩ .f32 0x00000000#32) i = (0 : EReal) := by
  show Ideal.ofBits .f32 0x00000000#32 = 0
  exact Ideal.ofBits_zero_f32

/-- The weighted neighbourhood sum at `(p, k)`: over the edges `e` whose target `dv(e)` is `p`, the sum of the source
    row's entry `h(sw(e), k)` times the edge's weight `nrm(e)`. -/
theorem agg_rows_apply {N D R : ℕ} (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (h : (⟨2, ![N, D]⟩ : Shape).Idx → EReal) (sw dv : IVec ⟨1, ![R]⟩ 32)
    (nrm : (⟨1, ![R]⟩ : Shape).Idx → EReal) (p : Fin N) (k : Fin D) :
    Host.scatterAdd (F := Ideal) (φ := .f32) (rowsScatter N D R wfS)
        (broadcastInDim ⟨2, ![N, D]⟩ ![] hz (constant (F := Ideal) ⟨0, ![]⟩ .f32 0x00000000#32))
        (broadcastInDim ⟨2, ![R, 1]⟩ ![0] hc dv)
        (mulf (Host.gather (rowsTake N D R wfG) h (broadcastInDim ⟨2, ![R, 1]⟩ ![0] hc sw))
              (broadcastInDim ⟨2, ![R, D]⟩ ![0, 1] hb (broadcastInDim ⟨2, ![R, 1]⟩ ![0] hc nrm))) (ix2 p k)
      = ∑ e ∈ Finset.univ.filter (fun e : Fin R => (dv (ix1 e)).toInt = (p.val : ℤ)),
          h (ix2 (⟨min (sw (ix1 e)).toInt.toNat (N - 1), by omega⟩ : Fin N) k) * nrm (ix1 e) := by
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  refine Finset.sum_congr rfl fun e _ => ?_
  have hrow : (⟨min (broadcastInDim ⟨2, ![R, 1]⟩ ![0] hc sw (ix2 e (0 : Fin 1))).toInt.toNat (N - 1), by omega⟩ : Fin N)
      = ⟨min (sw (ix1 e)).toInt.toNat (N - 1), by omega⟩ :=
    Fin.ext (congrArg (fun z : BitVec 32 => min z.toInt.toNat (N - 1)) (col_apply hc sw e 0))
  rw [mulf_apply, gather_rowsTake_apply hN, stretch_apply, hrow, col_apply hc nrm]

end Cert.Lib

end
-- ==== Proof.EdgeAgg.lean ====
/-
  This network's two neighbourhood sums, read at an index.

  The layer's aggregation `scat (take h s) d nrm` — the rows of `h : [50000, 128]` at the wrapped sources `s`, each
  scaled by its edge's weight `nrm(e)` and added into the row its target `d(e)` names, starting from zeros — has at
  `(p, k)` the value `∑ h(s(e), k) · nrm(e)` over the 690000 edges `e` (self loops included) whose target is `p`. The
  same holds, 256 columns wide, for the aggregation the reference program performs after its first matrix product.
-/
import proofs.«158695_j36636071034924_2_alg».proof.Proof.LibEdgeAgg
import proofs.«158695_j36636071034924_2_alg».proof.Proof.Edge
import proofs.«158695_j36636071034924_2_alg».proof.Proof.Gen.ReferenceIdeal

noncomputable section

open scoped BigOperators

namespace Cert.KernelIdeal.Edge

open Cert.KernelIdeal Cert.KernelIdeal.Facts₀ Cert.KernelIdeal.Facts Idealize.ShloMosaic Idealize.ShloMosaic.ValueIdx
open Cert.Lib

/-- The 128-wide neighbourhood sum at `(p, k)`: over the edges `e` whose target `d(e)` is `p`, the sum of `h` at the
    wrapped source row and column `k` times the edge's weight. -/
theorem scat_take_apply (h : FVec Ideal S50000x128 .f32) (s d : IVec S690000 32) (nrm : FVec Ideal S690000 .f32)
    (p : Fin 50000) (k : Fin 128) :
    scat (F := Ideal) (take (F := Ideal) h s) d nrm (ix2 p k)
      = ∑ e ∈ Finset.univ.filter (fun e : Fin 690000 => (d (ix1 e)).toInt = (p.val : ℤ)),
          h (ix2 (⟨min ((wrap s) (ix1 e)).toInt.toNat (50000 - 1), by omega⟩ : Fin 50000) k) * nrm (ix1 e) :=
  agg_rows_apply (N := 50000) (D := 128) (R := 690000) (by decide)
    gather_S50000x128_S690000x1_S690000x128_1_0_n_n_0_1_1128_wf scatter_S50000x128_S690000x1_S690000x128_1_0_0_1_wf
    bcast_S_S50000x128 bcast_S690000_S690000x1_0 bcast_S690000x1_S690000x128_0_1 h (wrap s) d nrm p k

/-- The 256-wide neighbourhood sum, over the reference program's dimension records, at `(p, k)`: the same sum. -/
theorem scat_take_apply_wide (h : FVec Ideal Cert.ReferenceIdeal.S50000x256 .f32) (s d : IVec S690000 32)
    (nrm : FVec Ideal S690000 .f32) (p : Fin 50000) (k : Fin 256) :
    Host.scatterAdd (F := Ideal) (φ := .f32) Cert.ReferenceIdeal.scatter_S50000x256_S690000x1_S690000x256_1_0_0_1
        (broadcastInDim Cert.ReferenceIdeal.S50000x256 ![] Cert.ReferenceIdeal.Facts₀.bcast_S_S50000x256
          (constant (F := Ideal) Cert.ReferenceIdeal.S_ .f32 0x00000000#32))
        (col d)
        (mulf (Host.gather Cert.ReferenceIdeal.gather_S50000x256_S690000x1_S690000x256_1_0_n_n_0_1_1256 h (col (wrap s)))
          (broadcastInDim Cert.ReferenceIdeal.S690000x256 ![0, 1]
            Cert.ReferenceIdeal.Facts₀.bcast_S690000x1_S690000x256_0_1 (col nrm))) (ix2 p k)
      = ∑ e ∈ Finset.univ.filter (fun e : Fin 690000 => (d (ix1 e)).toInt = (p.val : ℤ)),
          h (ix2 (⟨min ((wrap s) (ix1 e)).toInt.toNat (50000 - 1), by omega⟩ : Fin 50000) k) * nrm (ix1 e) :=
  agg_rows_apply (N := 50000) (D := 256) (R := 690000) (by decide)
    Cert.ReferenceIdeal.Facts₀.gather_S50000x256_S690000x1_S690000x256_1_0_n_n_0_1_1256_wf
    Cert.ReferenceIdeal.Facts₀.scatter_S50000x256_S690000x1_S690000x256_1_0_0_1_wf
    Cert.ReferenceIdeal.Facts₀.bcast_S_S50000x256 bcast_S690000_S690000x1_0
    Cert.ReferenceIdeal.Facts₀.bcast_S690000x1_S690000x256_0_1 h (wrap s) d nrm p k

end Cert.KernelIdeal.Edge

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.BridgeL1.lean ====
/-
  The first layer: aggregating the raw features and then multiplying by `W1` (the kernel's order) gives the array the
  reference gets by multiplying first and aggregating the 256-wide products.

  At node `r` and output column `q` the kernel's pre-activation is
      ∑ k, (∑ e → r, X (src e, k) · n e) · W1 (k, q)  +  b1 q
  and the reference's
      ∑ e → r, (∑ k, X (src e, k) · W1 (k, q)) · n e  +  b1 q ,
  the sums over the edges `e` landing on `r`, `src e` the row the edge takes and `n e` its weight. For real `X`, `W1` and
  `n` both are the double sum of `X (src e, k) · n e · W1 (k, q)`. Both then take the positive part.
-/
import proofs.«158695_j36636071034924_2_alg».proof.Proof.Spec
import proofs.«158695_j36636071034924_2_alg».proof.Proof.Edge
import proofs.«158695_j36636071034924_2_alg».proof.Proof.EdgeAgg
import proofs.«158695_j36636071034924_2_alg».proof.Proof.LibAggLinear
import proofs.«158695_j36636071034924_2_alg».proof.Proof.LibRealEntries
import proofs.«158695_j36636071034924_2_alg».proof.Proof.LibAsRow
import proofs.«158695_j36636071034924_2_alg».proof.Proof.RefReadP

noncomputable section

namespace Cert.Bridge

open Cert.KernelIdeal Cert.KernelIdeal.Edge Idealize.ShloMosaic Idealize.ShloMosaic.ValueIdx
open scoped BigOperators

/-- The edges landing on node `r`: those whose target word, read signed, is `r`. -/
abbrev into (x1 : IVec S2x640000 32) (r : Fin 50000) : Finset (Fin 690000) :=
  Finset.univ.filter (fun e : Fin 690000 => ((dsts x1) (ix1 e)).toInt = (r.val : ℤ))

/-- The row edge `e` takes: its wrapped source word read signed and clamped into the array. -/
abbrev rowOf (x1 : IVec S2x640000 32) (e : Fin 690000) : Fin 50000 :=
  ⟨min ((wrap (srcs x1)) (ix1 e)).toInt.toNat (50000 - 1), by omega⟩

/-- A bias vector reshaped to one row, read at a column. -/
theorem biasRow_apply {n : ℕ} (b : (⟨1, ![n]⟩ : Shape).Idx → EReal) (h : (⟨1, ![n]⟩ : Shape).ShapeCasts ⟨2, ![1, n]⟩) (q : Fin n) :
    shapeCast ⟨2, ![1, n]⟩ b h (ix2 (0 : Fin 1) q) = b (ix1 q) := by
  rw [Cert.Lib.shapeCast_eq_asRow]; rfl

open Cert.ReferenceIdeal.ReadP in
/-- The first layer's activations agree, for real features, real first-layer weights and real per-edge weights. -/
theorem layer1 (X : FVec Ideal S50000x128 .f32) (x1 : IVec S2x640000 32) (W1 : FVec Ideal S128x256 .f32)
    (b1 : FVec Ideal S256 .f32) (hX : Cert.Lib.AllReal X) (hW : Cert.Lib.AllReal W1)
    (hn : Cert.Lib.AllReal (norm (F := Ideal) x1)) :
    Cert.Spec.denseRelu (agg (F := Ideal) X x1) W1 (shapeCast S1x256 b1 Facts₀.shapeCasts_S256_S1x256)
      = Cert.ReferenceIdeal.ReadP.val_main_v47 (F := Ideal) X x1 W1 b1 := by
  funext j
  obtain ⟨r, q, rfl⟩ : ∃ (r : Fin 50000) (q : Fin 256), j = ix2 r q := ⟨j 0, j 1, eq_ix2 j⟩
  -- the reference's entry, one operation at a time
  rw [val_main_v47_apply, val_main_v46_apply, val_main_v45_apply, val_main_v44_apply, val_main_call1_v0_apply,
    val_main_call1_cst_apply, Ideal.maximumf_def, Ideal.addf_def, Ideal.ofBits_def, Ideal.ofBits_zero_f32]
  have hb : idx_main_v44 (idx_main_v45 (ix2 r q)) = ix1 q := funext fun a => by match a with | ⟨0, _⟩ => rfl
  have h30 : ∀ v : Fin 50000, val_main_v30 (F := Ideal) X W1 (ix2 v q) = ∑ k : Fin 128, X (ix2 v k) * W1 (ix2 k q) := fun v => by
    rw [val_main_v30_apply]
    refine Finset.sum_congr rfl fun k _ => ?_
    have el : lidx_main_v30 (ix2 v q) k = ix2 v k := funext fun a => by match a with | ⟨0, _⟩ => rfl | ⟨1, _⟩ => rfl
    have er : ridx_main_v30 (ix2 v q) k = ix2 k q := funext fun a => by match a with | ⟨0, _⟩ => rfl | ⟨1, _⟩ => rfl
    rw [el, er]
  have h43 : val_main_v43 (F := Ideal) X x1 W1 (ix2 r q)
      = ∑ e ∈ into x1 r, (∑ k : Fin 128, X (ix2 (rowOf x1 e) k) * W1 (ix2 k q)) * norm (F := Ideal) x1 (ix1 e) :=
    (scat_take_apply_wide (val_main_v30 (F := Ideal) X W1) (srcs x1) (dsts x1) (norm (F := Ideal) x1) r q).trans
      (Finset.sum_congr rfl fun e _ => by rw [h30])
  rw [h43, hb]
  -- the kernel's entry
  have hagg : ∀ k : Fin 128, agg (F := Ideal) X x1 (ix2 r k)
      = ∑ e ∈ into x1 r, X (ix2 (rowOf x1 e) k) * norm (F := Ideal) x1 (ix1 e) := fun k =>
    scat_take_apply X (srcs x1) (dsts x1) (norm (F := Ideal) x1) r k
  show max ((∑ k : Fin 128, agg (F := Ideal) X x1 (ix2 r k) * W1 (ix2 k q))
      + shapeCast S1x256 b1 Facts₀.shapeCasts_S256_S1x256 (ix2 (0 : Fin 1) q)) 0 = _
  rw [biasRow_apply, Finset.sum_congr rfl fun k _ => by rw [hagg k]]
  -- the one law: for real entries the two orders are the same double sum
  rw [Cert.Lib.sum_agg_mul (into x1 r) (rowOf x1) (fun v k => X (ix2 v k)) (fun k => W1 (ix2 k q))
    (fun e => norm (F := Ideal) x1 (ix1 e)) (fun v k => hX _) (fun k => hW _) (fun e => hn _)]

end Cert.Bridge

end
-- ==== Proof.BridgeL2.lean ====
/-
  From the first layer's activations to the logits, the two programs compute one function.

  With the first layer's activations `H` equal on both sides, the kernel's three remaining steps are the reference's:
  * `H · W2`, read at `(r, k)` as the sum over `i` of `H (r, i) · W2 (i, k)`, on both sides;
  * the normalised neighbourhood sum of that product — one array term on both sides (the kernel widens its stored rows
    back after the gather, which changes nothing on the extended reals);
  * `max (A + b2) 0 · Wc + bc`, read at `(p, q)` as the sum over `k` of `max (A (p, k) + b2 k) 0 · Wc (k, q)`, plus `bc q`.
  `whole` is the kernel's result as one function of the argument arrays; `result_eq` says it is the reference's.
-/
import proofs.«158695_j36636071034924_2_alg».proof.Proof.BridgeL1

noncomputable section

namespace Cert.Bridge

open Cert.KernelIdeal Cert.KernelIdeal.Edge Idealize.ShloMosaic Idealize.ShloMosaic.ValueIdx
open scoped BigOperators

/-- The kernel's result as one function of the argument arrays: the three dense layers around the two aggregations. -/
def whole (X : FVec Ideal S50000x128 .f32) (x1 : IVec S2x640000 32) (W1 : FVec Ideal S128x256 .f32) (b1 : FVec Ideal S256 .f32)
    (W2 : FVec Ideal S256x128 .f32) (b2 : FVec Ideal S128 .f32) (Wc : FVec Ideal S128x40 .f32) (bc : FVec Ideal S40 .f32) :
    FVec Ideal S50000x40 .f32 :=
  Cert.Spec.preactDense
    (scat (F := Ideal)
      (extf .f32 (take (F := Ideal) (φ := .bf16)
        (Cert.Spec.dense (Cert.Spec.denseRelu (agg (F := Ideal) X x1) W1 (shapeCast S1x256 b1 Facts₀.shapeCasts_S256_S1x256)) W2)
        (srcs x1)) Facts₀.bitsLt_bf16_f32)
      (dsts x1) (norm (F := Ideal) x1))
    (shapeCast S1x128 b2 Facts₀.shapeCasts_S128_S1x128) Wc (shapeCast S1x40 bc Facts₀.shapeCasts_S40_S1x40)

open Cert.ReferenceIdeal.ReadP in
/-- The second product: the kernel's row-by-column sums are the reference's `dot_general`. -/
theorem product2 (X : FVec Ideal S50000x128 .f32) (x1 : IVec S2x640000 32) (W1 : FVec Ideal S128x256 .f32) (b1 : FVec Ideal S256 .f32)
    (W2 : FVec Ideal S256x128 .f32) :
    Cert.Spec.dense (val_main_v47 (F := Ideal) X x1 W1 b1) W2 = val_main_v71 (F := Ideal) X x1 W1 b1 W2 := by
  funext j
  obtain ⟨r, k, rfl⟩ : ∃ (r : Fin 50000) (k : Fin 128), j = ix2 r k := ⟨j 0, j 1, eq_ix2 j⟩
  rw [val_main_v71_apply]
  show (∑ i : Fin 256, val_main_v47 (F := Ideal) X x1 W1 b1 (ix2 r i) * W2 (ix2 i k)) = _
  refine Finset.sum_congr rfl fun i _ => ?_
  have el : lidx_main_v71 (ix2 r k) i = ix2 r i := funext fun a => by match a with | ⟨0, _⟩ => rfl | ⟨1, _⟩ => rfl
  have er : ridx_main_v71 (ix2 r k) i = ix2 i k := funext fun a => by match a with | ⟨0, _⟩ => rfl | ⟨1, _⟩ => rfl
  rw [el, er]

open Cert.ReferenceIdeal.ReadP in
/-- The classifier: bias, positive part, product with `Wc`, bias — the reference's last nine operations. -/
theorem classifier (X : FVec Ideal S50000x128 .f32) (x1 : IVec S2x640000 32) (W1 : FVec Ideal S128x256 .f32) (b1 : FVec Ideal S256 .f32)
    (W2 : FVec Ideal S256x128 .f32) (b2 : FVec Ideal S128 .f32) (Wc : FVec Ideal S128x40 .f32) (bc : FVec Ideal S40 .f32) :
    Cert.Spec.preactDense (val_main_v84 (F := Ideal) X x1 W1 b1 W2) (shapeCast S1x128 b2 Facts₀.shapeCasts_S128_S1x128) Wc
        (shapeCast S1x40 bc Facts₀.shapeCasts_S40_S1x40)
      = val_main_v92 (F := Ideal) X x1 W1 b1 W2 b2 Wc bc := by
  funext j
  obtain ⟨p, q, rfl⟩ : ∃ (p : Fin 50000) (q : Fin 40), j = ix2 p q := ⟨j 0, j 1, eq_ix2 j⟩
  rw [val_main_v92_apply, val_main_v89_apply, val_main_v91_apply, val_main_v90_apply, Ideal.addf_def]
  have hq : idx_main_v90 (idx_main_v91 (ix2 p q)) = ix1 q := funext fun a => by match a with | ⟨0, _⟩ => rfl
  rw [hq]
  show (∑ k : Fin 128, max (val_main_v84 (F := Ideal) X x1 W1 b1 W2 (ix2 p k)
        + shapeCast S1x128 b2 Facts₀.shapeCasts_S128_S1x128 (ix2 (0 : Fin 1) k)) 0 * Wc (ix2 k q))
      + shapeCast S1x40 bc Facts₀.shapeCasts_S40_S1x40 (ix2 (0 : Fin 1) q) = _
  rw [biasRow_apply]
  refine congrArg (· + bc (ix1 q)) (Finset.sum_congr rfl fun k _ => ?_)
  have el : lidx_main_v89 (ix2 p q) k = ix2 p k := funext fun a => by match a with | ⟨0, _⟩ => rfl | ⟨1, _⟩ => rfl
  have er : ridx_main_v89 (ix2 p q) k = ix2 k q := funext fun a => by match a with | ⟨0, _⟩ => rfl | ⟨1, _⟩ => rfl
  have hk : idx_main_v85 (idx_main_v86 (ix2 p k)) = ix1 k := funext fun a => by match a with | ⟨0, _⟩ => rfl
  rw [el, er, val_main_v88_apply, val_main_v87_apply, val_main_v86_apply, val_main_v85_apply, val_main_call3_v0_apply,
    val_main_call3_cst_apply, Ideal.maximumf_def, Ideal.addf_def, Ideal.ofBits_def, Ideal.ofBits_zero_f32, hk, biasRow_apply]

open Cert.ReferenceIdeal.ReadP in
/-- The kernel's whole-array function is the reference's result, for real features, real first-layer weights and real
    per-edge weights. -/
theorem result_eq (X : FVec Ideal S50000x128 .f32) (x1 : IVec S2x640000 32) (W1 : FVec Ideal S128x256 .f32) (b1 : FVec Ideal S256 .f32)
    (W2 : FVec Ideal S256x128 .f32) (b2 : FVec Ideal S128 .f32) (Wc : FVec Ideal S128x40 .f32) (bc : FVec Ideal S40 .f32)
    (hX : Cert.Lib.AllReal X) (hW : Cert.Lib.AllReal W1) (hn : Cert.Lib.AllReal (norm (F := Ideal) x1)) :
    whole X x1 W1 b1 W2 b2 Wc bc = val_main_v92 (F := Ideal) X x1 W1 b1 W2 b2 Wc bc := by
  unfold whole
  rw [layer1 X x1 W1 b1 hX hW hn, product2 X x1 W1 b1 W2]
  exact classifier X x1 W1 b1 W2 b2 Wc bc

end Cert.Bridge

end
-- ==== Proof.KValue.lean ====
/-
  The idealized kernel's result array, as one function of its argument arrays.

  The result buffer is the third region's output array. Walking back: that array is `max (A2 + b2) 0 · Wc + bc` of the
  arrays the region finds; `A2` is what the last host stretch leaves — the second region's output `H1 · W2` aggregated
  over the graph —; `H1` is the first region's output `max (A1 · W1 + b1) 0`; and `A1` is the aggregation of the raw
  features the first stretches computed. Composed, this is `Bridge.whole` of the argument arrays.
-/
import proofs.«158695_j36636071034924_2_alg».proof.Proof.KRun
import proofs.«158695_j36636071034924_2_alg».proof.Proof.KHost
import proofs.«158695_j36636071034924_2_alg».proof.Proof.Regions
import proofs.«158695_j36636071034924_2_alg».proof.Proof.BridgeL2

set_option maxRecDepth 16384

noncomputable section

namespace Cert.KernelIdeal.KValue

open Cert.KernelIdeal Cert.KernelIdeal.Gen Cert.KernelIdeal.Edge
open Idealize.ShloMosaic Idealize.ShloMosaic.TcCoe Idealize.SL.Sem

variable (m : (ℓ : Loc nD τ sig) → Buf (Elt Ideal) ℓ) (ρ : Dev nD → PrngReg)

/-- The first region's output array: the first layer's activations. -/
theorem layer1_array (c : Dev nD) :
    W4 m ρ c (Proc.devRef .tc main_v44)
      = Cert.Spec.denseRelu (agg (F := Ideal) (m ((c.tc : Thread nD τ).loc main_arg0)) (m ((c.tc : Thread nD τ).loc main_arg1)))
          (m ((c.tc : Thread nD τ).loc main_arg2))
          (shapeCast S1x256 (m ((c.tc : Thread nD τ).loc main_arg3)) Facts₀.shapeCasts_S256_S1x256) := by
  refine (W4_arr m ρ c 3).trans ((Regions.arr0 (V3 m ρ) c).trans ?_)
  show Cert.Spec.denseRelu (W3 m ρ c (Proc.devRef .tc main_v42)) (W3 m ρ c (Proc.devRef .tc main_arg2)) (W3 m ρ c (Proc.devRef .tc main_v43)) = _
  rw [KHost.entry0_agg, KHost.entry0_w, KHost.entry0_b]

/-- The second region's output array: the activations times `W2`. -/
theorem product2_array (c : Dev nD) :
    W5 m ρ c (Proc.devRef .tc main_v45)
      = Cert.Spec.dense (Cert.Spec.denseRelu (agg (F := Ideal) (m ((c.tc : Thread nD τ).loc main_arg0)) (m ((c.tc : Thread nD τ).loc main_arg1)))
          (m ((c.tc : Thread nD τ).loc main_arg2))
          (shapeCast S1x256 (m ((c.tc : Thread nD τ).loc main_arg3)) Facts₀.shapeCasts_S256_S1x256))
          (m ((c.tc : Thread nD τ).loc main_arg4)) := by
  refine (W5_arr m ρ c 2).trans ((Regions.arr1 (V4 m ρ) c).trans ?_)
  show Cert.Spec.dense (W4 m ρ c (Proc.devRef .tc main_v44)) (W4 m ρ c (Proc.devRef .tc main_arg4)) = _
  rw [layer1_array, KHost.entry1_w]

/-- The result buffer at the last boundary is `Bridge.whole` of the argument arrays. -/
theorem result_array (c : Dev nD) :
    W7 m ρ c (Proc.devRef .tc main_v62)
      = Cert.Bridge.whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W7_arr m ρ c 4).trans ((Regions.arr2 (V6 m ρ) c).trans ?_)
  show Cert.Spec.preactDense (W6 m ρ c (Proc.devRef .tc main_v59)) (W6 m ρ c (Proc.devRef .tc main_v60))
      (W6 m ρ c (Proc.devRef .tc main_arg6)) (W6 m ρ c (Proc.devRef .tc main_v61)) = _
  rw [KHost.entry2_agg, KHost.entry2_b, KHost.entry2_w, KHost.entry2_c, product2_array]
  rfl

/-- The idealized kernel's run with its result named as a function of the launch contents. -/
theorem run : θ_run defs (onTc (τ := τ) (main (F := Ideal))) ⟨m, fun _ => 0, ρ⟩ (fun r => ∀ c : Dev nD,
      r.2.mem ((c.tc : Thread nD τ).loc main_v62)
        = Cert.Bridge.whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_array m ρ c), (h c).2⟩) (KRun.run (F := Ideal) m ρ)

end Cert.KernelIdeal.KValue

end
-- ==== Proof.NormReal.lean ====
/-
  The per-edge weights are real numbers.

  A node's degree is zero plus a finite sum of ones: a non-negative real. Where it is positive its inverse square root
  is a real; elsewhere the weight's factor is zero. A weight is the product of two such factors, read at two nodes.
-/
import proofs.«158695_j36636071034924_2_alg».proof.Proof.Edge
import proofs.«158695_j36636071034924_2_alg».proof.Proof.LibAggLinear
import Idealize.ShloMosaic.PureOps.Ideal.Laws
import Idealize.ShloMosaic.Lib.ValueIdx

noncomputable section

namespace Cert.KernelIdeal.Edge

open Cert.KernelIdeal Cert.KernelIdeal.Facts₀ Cert.KernelIdeal.Facts Idealize.ShloMosaic Idealize.ShloMosaic.TcCoe
open Idealize.ShloMosaic.ValueIdx
open scoped BigOperators

/-- The word of `1.0`. -/
theorem one_word : Ideal.ofBits .f32 0x3F800000#32 = 1 := by
  simp [Ideal.ofBits, Ideal.ieee, -EReal.coe_mul]; norm_num

/-- A real plus a finite sum of non-negative reals is a non-negative real, when the first is. -/
theorem nonneg_real_add_sum {α : Type} (z : EReal) (S : Finset α) (g : α → EReal) (hz : ∃ a : ℝ, 0 ≤ a ∧ z = (a : EReal))
    (hg : ∀ j, ∃ b : ℝ, 0 ≤ b ∧ g j = (b : EReal)) : ∃ r : ℝ, 0 ≤ r ∧ z + ∑ j ∈ S, g j = (r : EReal) := by
  obtain ⟨a, ha0, ha⟩ := hz
  choose b hb0 hb using hg
  refine ⟨a + ∑ j ∈ S, b j, add_nonneg ha0 (Finset.sum_nonneg fun j _ => hb0 j), ?_⟩
  rw [EReal.coe_add, Cert.Lib.ereal_coe_sum, ha]
  exact congrArg (fun t => (a : EReal) + t) (Finset.sum_congr rfl fun j _ => hb j)

/-- The host's accumulating scatter at the exact values, read at an index: the operand's entry plus the sum of the
    updates landing on it. -/
theorem scatterAdd_apply {s si u : Shape} {w : ℕ} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

/-- A degree is a non-negative real: zero plus a one for every edge landing on the node. -/
theorem deg_real (x1 : IVec S2x640000 32) (i : S50000.Idx) : ∃ r : ℝ, 0 ≤ r ∧ deg (F := Ideal) x1 i = (r : EReal) := by
  unfold deg
  rw [scatterAdd_apply]
  refine nonneg_real_add_sum _ _ _ ⟨0, le_refl _, ?_⟩ fun j => ⟨1, zero_le_one, ?_⟩
  · show Ideal.ofBits .f32 0x00000000#32 = ((0 : ℝ) : EReal)
    rw [Ideal.ofBits_zero_f32, EReal.coe_zero]
  · show Ideal.ofBits .f32 0x3F800000#32 = ((1 : ℝ) : EReal)
    rw [one_word, EReal.coe_one]

/-- Where a non-negative real `d` is positive its inverse square root is a real, and elsewhere the answer is the word
    of zero: the selection between the two is a real. (The vector `dg` stays a variable: nothing of it is opened.) -/
theorem rsqrt_or_zero_real (dg : FVec Ideal S50000 .f32) (i : S50000.Idx) (h : ∃ r : ℝ, 0 ≤ r ∧ dg i = (r : EReal)) :
    ∃ r : ℝ, select (cmpf .ogt dg (zerosN (F := Ideal))) (Host.rsqrt dg)
      (broadcastInDim S50000 ![] bcast_S_S50000 (constant (F := Ideal) S_ .f32 0x00000000#32)) i = (r : EReal) := by
  obtain ⟨r, hr0, hr⟩ := h
  show ∃ r' : ℝ, Scalar.select (Ideal.cmp .ogt (dg i) (Ideal.ofBits .f32 0x00000000#32))
      (Ideal.rsqrt (dg i)) (Ideal.ofBits .f32 0x00000000#32) = (r' : EReal)
  rw [hr, Ideal.ofBits_zero_f32]
  unfold Scalar.select Ideal.cmp
  by_cases h : (0 : EReal) < (r : EReal)
  · have hr' : 0 < r := by exact_mod_cast h
    refine ⟨(Real.sqrt r)⁻¹, ?_⟩
    simp [h, Ideal.rsqrt_coe, not_lt.mpr hr0, hr'.ne']
  · exact ⟨0, by simp [h]⟩

/-- `deg^(-1/2)`, or zero where the degree is not positive, is a real. -/
theorem dinv_real (x1 : IVec S2x640000 32) (i : S50000.Idx) : ∃ r : ℝ, dinv (F := Ideal) x1 i = (r : EReal) := by
  unfold dinv
  exact rsqrt_or_zero_real (deg (F := Ideal) x1) i (deg_real x1 i)

/-- A product of two entries of one real vector, each looked up by an index vector, is a real. (The vector `dv` stays
    a variable: nothing of it is opened.) -/
theorem mul_lookup_real (dv : FVec Ideal S50000 .f32) (hdv : ∀ i, ∃ r : ℝ, dv i = (r : EReal))
    (s d : IVec S690000x1 32) (e : S690000.Idx) :
    ∃ r : ℝ, mulf (Host.gather gather_S50000_S690000x1_S690000_n_0_n_n_0_1_1 dv s)
        (Host.gather gather_S50000_S690000x1_S690000_n_0_n_n_0_1_1 dv d) e = (r : EReal) := by
  obtain ⟨a, ha⟩ := hdv (gather_S50000_S690000x1_S690000_n_0_n_n_0_1_1.operandIdx e s)
  obtain ⟨b, hb⟩ := hdv (gather_S50000_S690000x1_S690000_n_0_n_n_0_1_1.operandIdx e d)
  refine ⟨a * b, ?_⟩
  show dv (gather_S50000_S690000x1_S690000_n_0_n_n_0_1_1.operandIdx e s)
      * dv (gather_S50000_S690000x1_S690000_n_0_n_n_0_1_1.operandIdx e d) = _
  rw [ha, hb, EReal.coe_mul]

/-- A weight is a real. -/
theorem norm_real (x1 : IVec S2x640000 32) (e : S690000.Idx) : ∃ r : ℝ, norm (F := Ideal) x1 e = (r : EReal) := by
  unfold norm
  exact mul_lookup_real (dinv (F := Ideal) x1) (dinv_real x1) _ _ e

end Cert.KernelIdeal.Edge

end
-- ==== Proof.PreReal.lean ====
/-
  From the precondition to real entries.

  The precondition says that every float input is finite: entry by entry, `|x| < +∞`, all the answers joined by `and`.
  Read on the extended reals this makes each input an array of reals. Here: the node features `X : [50000, 128]` and
  the first layer's weights `W1 : [128, 256]`, on every device.
-/
import proofs.«158695_j36636071034924_2_alg».proof.Defs
import proofs.«158695_j36636071034924_2_alg».proof.Proof.Gen.Pre_finite_inputs
import proofs.«158695_j36636071034924_2_alg».proof.Proof.LibRealEntries
import Idealize.ShloMosaic.Lib.ValueIdx
import Idealize.ShloMosaic.Lib.ReduceAll

noncomputable section

namespace Cert.KernelIdeal.PreReal

open Idealize.ShloMosaic Idealize.ShloMosaic.ValueIdx Idealize.SL.Sem
open Cert.Pre_finite_inputs Cert.Pre_finite_inputs.Facts

/-- The scalar shape has one index. -/
instance subsingleton_scalar_idx : Subsingleton Cert.Pre_finite_inputs.S_.Idx := ⟨fun a b => funext fun d => d.elim0⟩

/-- If the finiteness predicate of the eight inputs answers one, its first and third inputs — the two whose `all` sit
    innermost in the chain of `and`s — are arrays of reals. -/
theorem real_of_fn (x : FVec Ideal S50000x128 .f32) (e : IVec S2x640000 32) (w1 : FVec Ideal S128x256 .f32)
    (b1 : FVec Ideal S256 .f32) (w2 : FVec Ideal S256x128 .f32) (b2 : FVec Ideal S128 .f32)
    (w3 : FVec Ideal S128x40 .f32) (b3 : FVec Ideal S40 .f32)
    (h : Cert.Pre_finite_inputs.fn (F := Ideal) x e w1 b1 w2 b2 w3 b3 = fun _ => 1#1) :
    Cert.Lib.AllReal x ∧ Cert.Lib.AllReal w1 := by
  have h0 := congrFun h ix0
  dsimp only [Cert.Pre_finite_inputs.fn, Cert.Pre_finite_inputs.fn_part1] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, h7⟩ := IntOp.andi_eq_one.1 h8
  exact ⟨Cert.Lib.allReal_of_all_abs_lt x _ (fun _ => rfl) _ _ _ ix0 h3,
    Cert.Lib.allReal_of_all_abs_lt w1 _ (fun _ => rfl) _ _ _ ix0 h7⟩

/-- Under the precondition the node features are an array of reals, on every device. -/
theorem x_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Lib.AllReal (m ((c.tc : Thread Cert.KernelIdeal.nD Cert.KernelIdeal.τ).loc Cert.KernelIdeal.main_arg0)) :=
  (real_of_fn _ _ _ _ _ _ _ _ (h c)).1

/-- Under the precondition the first layer's weights are an array of reals, on every device. -/
theorem w1_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Lib.AllReal (m ((c.tc : Thread Cert.KernelIdeal.nD Cert.KernelIdeal.τ).loc Cert.KernelIdeal.main_arg2)) :=
  (real_of_fn _ _ _ _ _ _ _ _ (h c)).2

end Cert.KernelIdeal.PreReal

end
-- ==== Proof.lean ====
/-
  The certificate of a two-layer graph convolution with a linear classifier (50000 nodes, 640000 edges plus the self
  loops, features 128 → 256 → 128 → 40): the kernel and its reference compute the same logits on the extended reals.

  Both programs build the same edge structure from the edge list (sources and targets with the self loops appended, the
  degrees, the symmetric normalisation `n e = deg(src e)^(-1/2) · deg(dst e)^(-1/2)`) and aggregate with it:
  `agg h (r, ·) = ∑ over the edges e landing on r of h (src e, ·) · n e`. They differ in the FIRST layer only: the kernel
  aggregates the 128-wide features and multiplies by `W1` afterwards, `max (agg X · W1 + b1) 0`; the reference multiplies
  first, `max (agg (X · W1) + b1) 0`. For real `X`, `W1` and weights the two are one double sum (`Bridge.layer1`, over
  `Lib.sum_agg_mul`); the precondition gives the reality of `X` and `W1` (`PreReal`), and a weight is real because a
  degree is a finite count (`Edge.norm_real`). From the first layer's activations on, the two programs are the same
  function (`Bridge.product2`, `Bridge.classifier`): the kernel's three dense layers run block of rows by block of rows
  (`Regions`), the reference's as whole products.

  The kernel's side: its run with the result named (`KRun`), the result walked back through the regions and the host
  operations to one function `Bridge.whole` of the arguments (`KValue`). The reference's side: its run and its operations
  read one at a time. The frames are the generated ones; the idealization rewrote nothing.
-/
import proofs.«158695_j36636071034924_2_alg».proof.Defs
import proofs.«158695_j36636071034924_2_alg».proof.Proof.Gen.Kernel
import proofs.«158695_j36636071034924_2_alg».proof.Proof.Gen.Kernel.Skeleton
import proofs.«158695_j36636071034924_2_alg».proof.Proof.Gen.Kernel.Launch
import proofs.«158695_j36636071034924_2_alg».proof.Proof.Gen.Kernel.Points
import proofs.«158695_j36636071034924_2_alg».proof.Proof.Gen.Kernel.Frame
import proofs.«158695_j36636071034924_2_alg».proof.Proof.Gen.KernelIdeal
import proofs.«158695_j36636071034924_2_alg».proof.Proof.Gen.KernelIdeal.Skeleton
import proofs.«158695_j36636071034924_2_alg».proof.Proof.Gen.KernelIdeal.Launch
import proofs.«158695_j36636071034924_2_alg».proof.Proof.Gen.KernelIdeal.Points
import proofs.«158695_j36636071034924_2_alg».proof.Proof.Gen.KernelIdeal.Frame
import proofs.«158695_j36636071034924_2_alg».proof.Proof.Gen.ReferenceIdeal
import proofs.«158695_j36636071034924_2_alg».proof.Proof.Gen.Pre_finite_inputs
import proofs.«158695_j36636071034924_2_alg».proof.Proof.RefRunP
import proofs.«158695_j36636071034924_2_alg».proof.Proof.RefReadP
import proofs.«158695_j36636071034924_2_alg».proof.Proof.KValue
import proofs.«158695_j36636071034924_2_alg».proof.Proof.BridgeL2
import proofs.«158695_j36636071034924_2_alg».proof.Proof.NormReal
import proofs.«158695_j36636071034924_2_alg».proof.Proof.PreReal
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result at `Bridge.whole` of the kernel's launch arrays: the kernel's by its value walk, the
    reference's because its result term is that function of arrays that agree with the kernel's. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v92_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq _ _ _ _ _ _ _ _ (Cert.KernelIdeal.PreReal.x_real m hpre c) (Cert.KernelIdeal.PreReal.w1_real m hpre c)
    (fun e => Cert.KernelIdeal.Edge.norm_real _ e)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
